-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S10x256 .f32) (main_v50 : FVec F S10x256 .f32) : IVec S_ 1 :=
  let main_v51 : IVec S10x256 1 := cmpf .olt main_v49 main_v50
  let main_c_19 : IVec S_ 1 := constantI S_ 1 1#1
  let main_v52 : IVec S_ 1 := (fun x v => Host.reduce IntOp.andi x v reducesTo_S10x256_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S256x256 .f32) (main_arg10 : FVec F S256x256 .f32) (main_arg11 : FVec F S256 .f32) (main_arg12 : FVec F S10x256 .f32) (main_arg13 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S10x256 .f32 := Host.absf main_arg12
  let main_cst_18 : FVec F S_ .f32 := constant S_ .f32 0x7F800000#32
  let main_v50 : FVec F S10x256 .f32 := broadcastInDim S10x256 ![] bcast_S_S10x256 main_cst_18
  fn_part3 (F := F) main_arg13 main_v48 main_v49 main_v50

def fn_part1 {F : FTy → Type} [FloatOps F] (main_arg6 : FVec F S256x128 .f32) (main_arg7 : FVec F S256x256 .f32) (main_arg8 : FVec F S256 .f32) (main_arg9 : FVec F S256x256 .f32) (main_arg10 : FVec F S256x256 .f32) (main_arg11 : FVec F S256 .f32) (main_arg12 : FVec F S10x256 .f32) (main_arg13 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : IVec S50000 32) (main_arg3 : FVec F S800000 .f32) (main_arg4 : FVec F S256x128 .f32) (main_arg5 : FVec F S256 .f32) (main_arg6 : FVec F S256x128 .f32) (main_arg7 : FVec F S256x256 .f32) (main_arg8 : FVec F S256 .f32) (main_arg9 : FVec F S256x256 .f32) (main_arg10 : FVec F S256x256 .f32) (main_arg11 : FVec F S256 .f32) (main_arg12 : FVec F S10x256 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S128x256 : Shape := ⟨2, ![128, 256]⟩
abbrev S800000x256 : Shape := ⟨2, ![800000, 256]⟩
abbrev S50000x1 : Shape := ⟨2, ![50000, 1]⟩
abbrev S1x10 : Shape := ⟨2, ![1, 10]⟩
abbrev S128x10 : Shape := ⟨2, ![128, 10]⟩
abbrev S256x10 : Shape := ⟨2, ![256, 10]⟩

abbrev nBuf : Space → Nat
  | .hbm => 61
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S10x256, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x1, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x256, .f32⟩
  | .hbm, ⟨35, _⟩ => ⟨S50000x256, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S800000x1, .f32⟩
  | .hbm, ⟨46, _⟩ => ⟨S800000x256, .f32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S_, .f32⟩
  | .hbm, ⟨55, _⟩ => ⟨S128x256, .f32⟩
  | .hbm, ⟨56, _⟩ => ⟨S50000x1, .i32⟩
  | .hbm, ⟨57, _⟩ => ⟨S128x256, .f32⟩
  | .hbm, ⟨58, _⟩ => ⟨S1x256, .f32⟩
  | .hbm, ⟨59, _⟩ => ⟨S1x10, .f32⟩
  | .hbm, ⟨60, _⟩ => ⟨S128x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S1x256, .f32⟩
  | .local _ .vmem, ⟨6, _⟩ => ⟨S256x128, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S128x256, .f32⟩
  | .local _ .vmem, ⟨19, _⟩ => ⟨S256x256, .f32⟩
  | .local _ .vmem, ⟨20, _⟩ => ⟨S1x256, .f32⟩
  | .local _ .vmem, ⟨21, _⟩ => ⟨S10x256, .f32⟩
  | .local _ .vmem, ⟨22, _⟩ => ⟨S1x10, .f32⟩
  | .local _ .vmem, ⟨23, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S256x128_p1_0_S128x256 : S256x128.Transposes [1, 0] S128x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  bcast_S_S128x256 : S_.BroadcastsInDim S128x256 (![] : Fin 0 → Fin S128x256.rank)
  bcast_S50000_S50000x1_0 : S50000.BroadcastsInDim S50000x1 (![0] : Fin 1 → Fin S50000x1.rank)
  shapeCasts_S10_S1x10 : S10.ShapeCasts S1x10
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10x256_S10x256_0_0 : ∀ a, (![0, 0] : Fin 2 → Nat) a + S10x256.size a ≤ S10x256.size a
  h_S10x256 : 0 < S10x256.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x256_S128x256 : S1x256.Broadcasts S128x256
  transposes_S10x256_p1_0_S256x10 : S10x256.Transposes [1, 0] S256x10
  broadcasts_S1x10_S128x10 : S1x10.Broadcasts S128x10
  inb_S128x10_S128x10_0_0 : ∀ a, (![0, 0] : Fin 2 → Nat) a + S128x10.size a ≤ S128x10.size a
  h_S128x10 : 0 < S128x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S128x256_S50000x1_S50000x256_1_0_0_1_wf : ScatterDims.WF S128x256 S50000x1 S50000x256 [1] [0] [0] 1
  dot_S128x256_S256x256_S128x256_1_0_0_1_n_n_wf : DotDims.WF S128x256 S256x256 S128x256 [1] [0] [0] [1] [] []
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x256.size a ≤ S128x256.size a
  hwx2_0 : ∀ i : grid2.Coords, EltTy.bits .f32 = 32 ∨ (Rect.block (s := S128x256) S128x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10x256.size a ≤ S10x256.size a
  hwx2_3 : ∀ i : grid2.Coords, EltTy.bits .f32 = 32 ∨ (Rect.block (s := S10x256) S10x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x10.size a ≤ S128x10.size a
  hwx2_5 : ∀ i : grid2.Coords, EltTy.bits .f32 = 32 ∨ (Rect.block (s := S128x10) S128x10.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S128x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S10x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S128x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S50000x1 : Shape := ⟨2, ![50000, 1]⟩
abbrev S256x10 : Shape := ⟨2, ![256, 10]⟩
abbrev S128x10 : Shape := ⟨2, ![128, 10]⟩
abbrev S1x10 : Shape := ⟨2, ![1, 10]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S10x256, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x1, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S128x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S128x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S800000x1, .f32⟩
  | .hbm, ⟨55, _⟩ => ⟨S800000x256, .f32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S256x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S256x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S128x256, .f32⟩
  | .hbm, ⟨74, _⟩ => ⟨S50000x1, .i32⟩
  | .hbm, ⟨75, _⟩ => ⟨S128x256, .f32⟩
  | .hbm, ⟨76, _⟩ => ⟨S256x256, .f32⟩
  | .hbm, ⟨77, _⟩ => ⟨S128x256, .f32⟩
  | .hbm, ⟨78, _⟩ => ⟨S1x256, .f32⟩
  | .hbm, ⟨79, _⟩ => ⟨S128x256, .f32⟩
  | .hbm, ⟨80, _⟩ => ⟨S128x256, .f32⟩
  | .hbm, ⟨81, _⟩ => ⟨S_, .f32⟩
  | .hbm, ⟨82, _⟩ => ⟨S128x256, .f32⟩
  | .hbm, ⟨83, _⟩ => ⟨S128x256, .f32⟩
  | .hbm, ⟨84, _⟩ => ⟨S256x10, .f32⟩
  | .hbm, ⟨85, _⟩ => ⟨S128x10, .f32⟩
  | .hbm, ⟨86, _⟩ => ⟨S1x10, .f32⟩
  | .hbm, ⟨87, _⟩ => ⟨S128x10, .f32⟩
  | .hbm, ⟨88, _⟩ => ⟨S128x10, .f32⟩
  | .hbm, ⟨89, _⟩ => ⟨S128x10, .f32⟩
  | .hbm, ⟨90, _⟩ => ⟨S128x10, .f32⟩
  | .hbm, ⟨91, _⟩ => ⟨S_, .f32⟩
  | .hbm, ⟨92, _⟩ => ⟨S128x10, .f32⟩
  | .hbm, ⟨93, _⟩ => ⟨S128x10, .f32⟩
  | .hbm, ⟨94, _⟩ => ⟨S_, .f32⟩
  | .hbm, ⟨95, _⟩ => ⟨S128x10, .f32⟩
  | .hbm, ⟨96, _⟩ => ⟨S128x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_5 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  transposes_S256x256_S256x256_1_0 : S256x256.Transposes [1, 0] S256x256
  bcast_S_S128x256 : S_.BroadcastsInDim S128x256 (![] : Fin 0 → Fin S128x256.rank)
  bcast_S50000_S50000x1_0 : S50000.BroadcastsInDim S50000x1 (![0] : Fin 1 → Fin S50000x1.rank)
  bcast_S1x256_S128x256_0_1 : S1x256.BroadcastsInDim S128x256 (![0, 1] : Fin 2 → Fin S128x256.rank)
  transposes_S10x256_S256x10_1_0 : S10x256.Transposes [1, 0] S256x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  bcast_S_S128x10 : S_.BroadcastsInDim S128x10 (![] : Fin 0 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  dot_S128x256_S256x256_S128x256_1_0_0_1_n_n_wf : DotDims.WF S128x256 S256x256 S128x256 [1] [0] [0] [1] [] []
  dot_S128x256_S256x10_S128x10_1_0_0_1_n_n_wf : DotDims.WF S128x256 S256x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.KernelRun.lean ====
/-
  The idealized kernel's run with its result named.

  The program is three pipelined regions among three stretches of host operations. Every unscoped buffer's contents are
  followed from the launch memory through the six segments: after a stretch of host operations a buffer holds what the
  operations' pure functions give, after a region each of the region's arrays holds what the write-backs leave and every
  other buffer is as the region found it. So every weakly fair execution terminates with the result array at the last
  boundary's contents of its buffer, and the argument arrays as launched. What those contents are, as a function of the
  arguments, is the subject of the value modules.
-/
import proofs.«177770_j49933289783570_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the contents the
    last segment boundary gives its buffer, and every argument array ends as launched. -/
theorem run : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.ValueRun

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibLinearLayer.lean ====
/-
  A linear layer  mean · Wlᵀ + b + x · Wrᵀ  over the extended reals, read at an output index.

  The weights are stored [o, k] (output features by input features); a kernel transposes each weight to [k, o] and
  multiplies it from the left by an [n, k] block into a zero accumulator, so the product's (p, q) entry is the sum over
  the k input features of block (p, j) · weight (q, j).  The bias is a row [1, o] broadcast down the n rows.  The whole
  layer at (p, q) is therefore

      (∑ j, mean (p, j) · Wl (q, j)) + b (0, q) + ∑ j, x (p, j) · Wr (q, j),

  associated as the operations are applied: the first product, then the bias, then the second product.
  A change of float format on the way into a product is the identity on extended reals.
-/
import Idealize.ShloMosaic.Lib.ValueIdx
import Idealize.ShloMosaic.Lib.ValueLayout
import Idealize.ShloMosaic.Lib.Pipeline.Value
import Idealize.ShloMosaic.PureOps.Ideal.Laws
import proofs.«177770_j49933289783570_1_alg».proof.Proof.LibPlainDot

noncomputable section

namespace Cert.Lib.LinearLayer

open Idealize.ShloMosaic Idealize.ShloMosaic.ValueIdx

/-- An [a, b] array of extended reals. -/
abbrev Mat (a b : Nat) : Type := (⟨2, ![a, b]⟩ : Shape).Idx → EReal

/-- The layer at row `p`, output feature `q`. -/
def lin {n k o : Nat} (mean x : Mat n k) (Wl Wr : Mat o k) (b : Mat 1 o) (p : Fin n) (q : Fin o) : EReal :=
  (∑ j : Fin k, mean (ix2 p j) * Wl (ix2 q j)) + b (ix2 (0 : Fin 1) q) + ∑ j : Fin k, x (ix2 p j) * Wr (ix2 q j)

/-- One product with a bias: `z · Wᵀ + b` at row `p`, output feature `q`. -/
def proj {n k o : Nat} (z : Mat n k) (W : Mat o k) (b : Mat 1 o) (p : Fin n) (q : Fin o) : EReal :=
  (∑ j : Fin k, z (ix2 p j) * W (ix2 q j)) + b (ix2 (0 : Fin 1) q)

/-- The layer over whole arrays. -/
def layer {n k o : Nat} (mean x : Mat n k) (Wl Wr : Mat o k) (b : Mat 1 o) : Mat n o :=
  fun i => lin mean x Wl Wr b (i 0) (i 1)

/-- The layer followed by the maximum with the f32 zero word, over whole arrays. -/
def reluLayer {n k o : Nat} (mean x : Mat n k) (Wl Wr : Mat o k) (b : Mat 1 o) : Mat n o :=
  fun i => max (lin mean x Wl Wr b (i 0) (i 1)) (Ideal.ofBits .f32 0x00000000#32)

/-- The product with a bias over whole arrays. -/
def projLayer {n k o : Nat} (z : Mat n k) (W : Mat o k) (b : Mat 1 o) : Mat n o :=
  fun i => proj z W b (i 0) (i 1)

/-- A block times a transposed weight into a zero accumulator, at (p, q): the sum over the shared axis of
    block (p, j) · weight (q, j). -/
theorem matmul_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.matmul (Cert.Lib.plainDot M K N wf) prec l (transpose ⟨2, ![K, N]⟩ [1, 0] w ht)
        (constant (F := Ideal) ⟨2, ![M, N]⟩ .f32 0x00000000#32) (ix2 p q)
      = ∑ j : Fin K, l (ix2 p j) * w (ix2 q j) := by
  rw [Cert.Lib.matmul_zero_apply]
  exact Finset.sum_congr rfl fun j _ => by rw [transpose_ix2_apply]

/-- The host's product of an array with a transposed weight, at (p, q). -/
theorem dotGeneral_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.dotGeneral (Cert.Lib.plainDot M K N wf) prec sched l (transpose ⟨2, ![K, N]⟩ [1, 0] w ht) (ix2 p q)
      = ∑ j : Fin K, l (ix2 p j) * w (ix2 q j) := by
  rw [Cert.Lib.dotGeneral_plain_apply]
  exact Finset.sum_congr rfl fun j _ => by rw [transpose_ix2_apply]

end Cert.Lib.LinearLayer

end
-- ==== Proof.Network.lean ====
/-
  The network both programs compute, as one function of the argument arrays over the extended reals.

  A graph convolution takes node features h [n, k] and an aggregated copy a [n, k] (the weighted sum of the features of
  each node's in-neighbours) to  max (a · Wrelᵀ + b + h · Wrootᵀ, 0)  [n, o]; two of them are applied in turn, the second
  aggregating the first one's output. The node rows are then summed per graph into g [G, o], and the head is
  σ (max (g · W1ᵀ + b1, 0) · W2ᵀ + b2). The aggregations and the per-graph sum enter as functions of the array they read:
  both programs apply the same ones, and nothing here depends on what they are.

  A bias is stored as a vector [o]; each layer reads it as the row [1, o].
-/
import Idealize.ShloMosaic.Lib.ValueIdx
import Idealize.ShloMosaic.PureOps.Ideal
import proofs.«177770_j49933289783570_1_alg».proof.Proof.LibLinearLayer

noncomputable section

namespace Cert.Gnn

open Idealize.ShloMosaic Idealize.ShloMosaic.ValueIdx Cert.Lib.LinearLayer

/-- A vector [o] of extended reals. -/
abbrev Vect (o : Nat) : Type := (⟨1, ![o]⟩ : Shape).Idx → EReal

/-- A vector [o] read as the row [1, o]. -/
def rowOf {o : Nat} (b : Vect o) : Mat 1 o := fun i => b (ix1 (i 1))

theorem rowOf_apply {o : Nat} (b : Vect o) (q : Fin o) : rowOf b (ix2 (0 : Fin 1) q) = b (ix1 q) := rfl

/-- Entry (p, q) of a convolution reads only row p of the aggregated array and of the features: two pairs of arrays
    that agree on those rows (row p of one pair, row p' of the other) give the same entry. -/
theorem reluLayer_rows {n n' k o : Nat} (a x : Mat n k) (a' x' : Mat n' k) (Wl Wr : Mat o k) (b : Mat 1 o)
    (p : Fin n) (p' : Fin n') (q : Fin o) (ha : ∀ j : Fin k, a (ix2 p j) = a' (ix2 p' j))
    (hx : ∀ j : Fin k, x (ix2 p j) = x' (ix2 p' j)) :
    reluLayer a x Wl Wr b (ix2 p q) = reluLayer a' x' Wl Wr b (ix2 p' q) := by
  show max ((∑ j : Fin k, a (ix2 p j) * Wl (ix2 q j)) + b (ix2 (0 : Fin 1) q) + ∑ j : Fin k, x (ix2 p j) * Wr (ix2 q j)) _
    = max ((∑ j : Fin k, a' (ix2 p' j) * Wl (ix2 q j)) + b (ix2 (0 : Fin 1) q) + ∑ j : Fin k, x' (ix2 p' j) * Wr (ix2 q j)) _
  simp only [ha, hx]

/-- The head's hidden layer: max (g · Wᵀ + b, 0). -/
def hidden {n k o : Nat} (g : Mat n k) (W : Mat o k) (b : Mat 1 o) : Mat n o :=
  fun i => max (proj g W b (i 0) (i 1)) (Ideal.ofBits .f32 0x00000000#32)

/-- The head: σ (max (g · W1ᵀ + b1, 0) · W2ᵀ + b2). -/
def head {n k o c : Nat} (g : Mat n k) (W1 : Mat o k) (b1 : Mat 1 o) (W2 : Mat c o) (b2 : Mat 1 c) : Mat n c :=
  fun i => Ideal.logistic (proj (hidden g W1 b1) W2 b2 (i 0) (i 1))

/-- The first convolution's output. -/
def conv1 {n f d : Nat} (agg1 : Mat n f → Mat n f) (x : Mat n f) (W1rel W1root : Mat d f) (b1 : Vect d) : Mat n d :=
  reluLayer (agg1 x) x W1rel W1root (rowOf b1)

/-- The second convolution's output. -/
def conv2 {n f d : Nat} (agg1 : Mat n f → Mat n f) (agg2 : Mat n d → Mat n d) (x : Mat n f) (W1rel W1root : Mat d f) (b1 : Vect d)
    (W2rel W2root : Mat d d) (b2 : Vect d) : Mat n d :=
  reluLayer (agg2 (conv1 agg1 x W1rel W1root b1)) (conv1 agg1 x W1rel W1root b1) W2rel W2root (rowOf b2)

/-- The whole network. -/
def net {n f d G c : Nat} (agg1 : Mat n f → Mat n f) (agg2 : Mat n d → Mat n d) (pool : Mat n d → Mat G d)
    (x : Mat n f) (W1rel W1root : Mat d f) (b1 : Vect d) (W2rel W2root : Mat d d) (b2 : Vect d)
    (Wl1 : Mat d d) (bl1 : Vect d) (Wl2 : Mat c d) (bl2 : Vect c) : Mat G c :=
  head (pool (conv2 agg1 agg2 x W1rel W1root b1 W2rel W2root b2)) Wl1 (rowOf bl1) Wl2 (rowOf bl2)

end Cert.Gnn

end
-- ==== Proof.KernelBody.lean ====
/-
  What each of the three kernel bodies stores, read at an entry over the extended reals.

  A convolution body loads a block of aggregated rows and the same rows of the features, both weights whole and the bias row,
  and stores  max (aggregated · Wrelᵀ + bias + features · Wrootᵀ, 0)  for its rows: each weight is transposed and multiplied
  from the left into a zero accumulator, so entry (p, q) of a product is the sum over the input features of row p times
  weight row q. Rounding an operand to a narrower float format on the way into a product is the identity on extended
  reals. The head's body stores  σ (max (g · W1ᵀ + b1, 0) · W2ᵀ + b2)  for the whole pooled array.
-/
import proofs.«177770_j49933289783570_1_alg».proof.Proof.Gen.KernelIdeal.Skeleton
import proofs.«177770_j49933289783570_1_alg».proof.Proof.Network
import Idealize.ShloMosaic.Lib.ValueIdx
import Idealize.ShloMosaic.Lib.ValueLayout
import Idealize.ShloMosaic.Lib.Pipeline.Value

noncomputable section

namespace Cert.Gnn.Body

open Idealize.ShloMosaic Idealize.ShloMosaic.TcCoe Idealize.ShloMosaic.ValueIdx
open Cert.KernelIdeal Cert.KernelIdeal.Gen Cert.Lib.LinearLayer

/-- The four products' dimension numbers are those of a plain [M, K] × [K, N] product. -/
theorem dims_conv1 : dot_S2000x128_S128x256_S2000x256_1_0_0_1_n_n
    = Cert.Lib.plainDot 2000 128 256 Facts₀.dot_S2000x128_S128x256_S2000x256_1_0_0_1_n_n_wf := rfl
theorem dims_conv2 : dot_S2000x256_S256x256_S2000x256_1_0_0_1_n_n
    = Cert.Lib.plainDot 2000 256 256 Facts₀.dot_S2000x256_S256x256_S2000x256_1_0_0_1_n_n_wf := rfl
theorem dims_hidden : dot_S128x256_S256x256_S128x256_1_0_0_1_n_n
    = Cert.Lib.plainDot 128 256 256 Facts₀.dot_S128x256_S256x256_S128x256_1_0_0_1_n_n_wf := rfl
theorem dims_logits : dot_S128x256_S256x10_S128x10_1_0_0_1_n_n
    = Cert.Lib.plainDot 128 256 10 Facts₀.dot_S128x256_S256x10_S128x10_1_0_0_1_n_n_wf := rfl

/-- The first convolution's body at row p of its block, output feature q. -/
theorem conv1_apply (a h : Vec Ideal S2000x128 .f32) (wrel wroot : Vec Ideal S256x128 .f32) (b : Vec Ideal S1x256 .f32)
    (p : Fin 2000) (q : Fin 256) :
    k0_pay1 (F := Ideal) a h wrel wroot b (ix2 p q) = reluLayer a h wrel wroot b (ix2 p q) := by
  simp only [k0_pay1, maximumf_apply, addf_apply, broadcast_apply, shapeCast_self, matmul, dims_conv1,
    broadcastTo_1b_ab_apply]
  rw [matmul_transposed_apply, matmul_transposed_apply]
  rfl

/-- The second convolution's body at row p of its block, output feature q. -/
theorem conv2_apply (a h : Vec Ideal S2000x256 .f32) (wrel wroot : Vec Ideal S256x256 .f32) (b : Vec Ideal S1x256 .f32)
    (p : Fin 2000) (q : Fin 256) :
    k1_pay1 (F := Ideal) a h wrel wroot b (ix2 p q) = reluLayer a h wrel wroot b (ix2 p q) := by
  simp only [k1_pay1, maximumf_apply, addf_apply, broadcast_apply, shapeCast_self, matmul, dims_conv2,
    broadcastTo_1b_ab_apply]
  rw [matmul_transposed_apply, matmul_transposed_apply]
  rfl

/-- The logistic function applied entrywise, read at an index. -/
theorem logistic_apply {s : Shape} (a : FVec Ideal s .f32) (i : s.Idx) : logistic a i = Ideal.logistic (a i) := rfl

/-- The head's body at graph p, class q. -/
theorem head_apply (g : Vec Ideal S128x256 .f32) (w1 : Vec Ideal S256x256 .f32) (w2 : Vec Ideal S10x256 .f32)
    (b1 : Vec Ideal S1x256 .f32) (b2 : Vec Ideal S1x10 .f32) (p : Fin 128) (q : Fin 10) :
    k2_pay1 (F := Ideal) g w1 w2 b1 b2 (ix2 p q) = head g w1 b1 w2 b2 (ix2 p q) := by
  simp only [k2_pay1, logistic_apply, maximumf_apply, addf_apply, broadcast_apply, shapeCast_self, matmul, dims_hidden,
    dims_logits, broadcastTo_1b_ab_apply]
  rw [matmul_transposed_apply]
  show _ = Ideal.logistic ((∑ j : Fin 256, hidden g w1 b1 (ix2 p j) * w2 (ix2 q j)) + b2 (ix2 (0 : Fin 1) q))
  refine congrArg Ideal.logistic (congrArg (· + b2 (ix2 (0 : Fin 1) q)) (Finset.sum_congr rfl fun j _ => congrArg (· * w2 (ix2 q j)) ?_))
  simp only [truncf_apply, maximumf_apply, addf_apply, broadcast_apply, broadcastTo_1b_ab_apply]
  rw [matmul_transposed_apply]
  rfl

end Cert.Gnn.Body

end
-- ==== Proof.Region0.lean ====
/-
  The first convolution's region: its output array after the run, as one function of the arrays the region finds.

  The grid has 25 points; point t handles rows 2000·t … 2000·t + 1999. Its block of the aggregated array and of the features
  are those rows, both weights and the bias row are fetched whole, and the body's result for the block is written back to the
  same rows of the output. An entry of a layer reads only its own row of the two row arrays, so what point t writes back is
  block t of the layer of the whole arrays; every row lies in exactly the block of point row / 2000, so the blocks cover the
  output and it ends holding that layer.
-/
import proofs.«177770_j49933289783570_1_alg».proof.Proof.Gen.KernelIdeal.Frame
import proofs.«177770_j49933289783570_1_alg».proof.Proof.KernelBody
import Idealize.ShloMosaic.Lib.Pipeline.Value
set_option maxRecDepth 16384
noncomputable section
namespace Cert.Gnn.Region
open Idealize.ShloMosaic Idealize.ShloMosaic.TcCoe Idealize.ShloMosaic.ValueIdx Idealize.SL.Sem
open Cert.KernelIdeal Cert.KernelIdeal.Gen Cert.Lib.LinearLayer Cert.Gnn
open Idealize.ShloMosaic.Pipeline (Dat Cfg Window)

variable (V : (c : Dev nD) → (b : Ref sig .tc) → Buf (Elt Ideal) ((c : Thread nD τ).loc b))

theorem hz_0 : (![0, 0] : Fin 2 → Nat) = fun _ => 0 := funext fun a => by fin_cases a <;> rfl

theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 2000·t + p of the array. -/
theorem row_lt (t : Fin cfg0.N) (p : Fin 2000) : t.val * 2000 + p.val < 50000 := by
  have h := t.isLt; have hN : cfg0.N = 25 := N_0; have hp := p.isLt; omega

theorem emb0_5 (t : Fin cfg0.N) (p : Fin 2000) (q : Fin 256) :
    ((cfg0.win 5).blk t).view.emb (ix2 p q) = (ix2 (⟨t.val * 2000 + p.val, row_lt t p⟩ : Fin 50000) q : S50000x256.Idx) := by
  obtain ⟨-, -, -, -, -, -, -, -, -, -, e0, e1⟩ := idx0 t
  funext a; apply Fin.ext
  match a with
  | ⟨0, _⟩ => show win0_5.index t (0 : Fin 2) * 2000 + 1 * p.val = t.val * 2000 + p.val; omega
  | ⟨1, _⟩ => show win0_5.index t (1 : Fin 2) * 256 + 1 * q.val = q.val; omega

theorem read0_0 (c : Dev nD) (t : Fin cfg0.N) (p : Fin 2000) (k : Fin 128) :
    iblk0 V c 0 t (ix2 p k) = V c main_v16 (ix2 (⟨t.val * 2000 + p.val, row_lt t p⟩ : Fin 50000) k) := by
  obtain ⟨e0, e1, -⟩ := idx0 t
  show V c main_v16 (((cfg0.win 0).blk t).view.emb (ix2 p k)) = _
  refine congrArg (V c main_v16) ?_
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem read0_1 (c : Dev nD) (t : Fin cfg0.N) (p : Fin 2000) (k : Fin 128) :
    iblk0 V c 1 t (ix2 p k) = V c main_arg0 (ix2 (⟨t.val * 2000 + p.val, row_lt t p⟩ : Fin 50000) k) := by
  obtain ⟨-, -, e0, e1, -⟩ := idx0 t
  show V c main_arg0 (((cfg0.win 1).blk t).view.emb (ix2 p k)) = _
  refine congrArg (V c main_arg0) ?_
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem read0_2 (c : Dev nD) (t : Fin cfg0.N) : iblk0 V c 2 t = V c main_arg4 := by
  obtain ⟨-, -, -, -, e0, e1, -⟩ := idx0 t
  funext j
  show V c main_arg4 (((cfg0.win 2).blk t).view.emb j) = _
  refine congrArg (V c main_arg4) ?_
  funext a; apply Fin.ext
  match a with
  | ⟨0, _⟩ => show win0_2.index t (0 : Fin 2) * 256 + 1 * (j 0).val = (j 0).val; omega
  | ⟨1, _⟩ => show win0_2.index t (1 : Fin 2) * 128 + 1 * (j 1).val = (j 1).val; omega

theorem read0_3 (c : Dev nD) (t : Fin cfg0.N) : iblk0 V c 3 t = V c main_v17 := by
  obtain ⟨-, -, -, -, -, -, e0, e1, -⟩ := idx0 t
  funext j
  show V c main_v17 (((cfg0.win 3).blk t).view.emb j) = _
  refine congrArg (V c main_v17) ?_
  funext a; apply Fin.ext
  match a with
  | ⟨0, _⟩ => show win0_3.index t (0 : Fin 2) * 1 + 1 * (j 0).val = (j 0).val; omega
  | ⟨1, _⟩ => show win0_3.index t (1 : Fin 2) * 256 + 1 * (j 1).val = (j 1).val; omega

theorem read0_4 (c : Dev nD) (t : Fin cfg0.N) : iblk0 V c 4 t = V c main_arg6 := by
  obtain ⟨-, -, -, -, -, -, -, -, e0, e1, -⟩ := idx0 t
  funext j
  show V c main_arg6 (((cfg0.win 4).blk t).view.emb j) = _
  refine congrArg (V c main_arg6) ?_
  funext a; apply Fin.ext
  match a with
  | ⟨0, _⟩ => show win0_4.index t (0 : Fin 2) * 256 + 1 * (j 0).val = (j 0).val; omega
  | ⟨1, _⟩ => show win0_4.index t (1 : Fin 2) * 128 + 1 * (j 1).val = (j 1).val; omega

theorem flushed0 (c : Dev nD) (t : Fin cfg0.N) :
    (dat0 V c).flushed 5 t = ((cfg0.win 5).blk t).view.read (Elt Ideal)
      (reluLayer (V c main_v16) (V c main_arg0) (V c main_arg4) (V c main_arg6) (V c main_v17)) := by
  show (cfg0.win 5).cut (grid0.coords t) ((dat0 V c).after 5 t) = _
  rw [after0_5]
  unfold out0_5
  rw [View.canon_unit_zero hz_0]
  simp only [View.ld_unit_zero (S := S2000x128) hz_0, View.ld_unit_zero (S := S256x128) hz_0, View.ld_unit_zero (S := S1x256) hz_0]
  funext j
  obtain ⟨p, q, rfl⟩ : ∃ (p : Fin 2000) (q : Fin 256), j = ix2 p q := ⟨j 0, j 1, eq_ix2 (n0 := 2000) (n1 := 256) j⟩
  show k0_pay1 (iblk0 V c 0 t) (iblk0 V c 1 t) (iblk0 V c 2 t) (iblk0 V c 4 t) (iblk0 V c 3 t) (ix2 p q)
    = reluLayer (V c main_v16) (V c main_arg0) (V c main_arg4) (V c main_arg6) (V c main_v17) (((cfg0.win 5).blk t).view.emb (ix2 p q))
  refine (Cert.Gnn.Body.conv1_apply (iblk0 V c 0 t) (iblk0 V c 1 t) (iblk0 V c 2 t) (iblk0 V c 4 t) (iblk0 V c 3 t) p q).trans ?_
  rw [read0_2, read0_3, read0_4, emb0_5]
  exact reluLayer_rows _ _ _ _ _ _ _ p _ q (fun k => read0_0 V c t p k) (fun k => read0_1 V c t p k)

/-- An index of the output array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v18).slice (win0_5.rect t)).set ↔ _
  rw [View.set_slice_whole, Rect.mem_set_unit]
  exact Iff.rfl

/-- Row r of the output array is in the block of point r / 2000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by omega
  obtain ⟨-, -, -, -, -, -, -, -, -, -, e0, e1⟩ := idx0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    have e0' : win0_5.index ⟨(i 0).val / 2000, ht⟩ (0 : Fin 2) = (i 0).val / 2000 := e0
    omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    omega

/-- The first convolution's output array after the region: the layer of the arrays the region found. -/
theorem final0 (c : Dev nD) :
    (dat0 V c).arrAt 5 cfg0.N
      = reluLayer (V c main_v16) (V c main_arg0) (V c main_arg4) (V c main_arg6) (V c main_v17) :=
  (dat0 V c).arrAt_eq_of_cover 5 _ (fun t _ => flushed0 V c t) cover0

end Cert.Gnn.Region
end
-- ==== Proof.Region1.lean ====
/-
  The second convolution's region: its output array after the run, as one function of the arrays the region finds.

  As in the first convolution the grid has 25 points of 2000 rows each; the rows are 256 wide here and the weights 256 × 256.
  Point t writes back block t of the layer of the whole arrays, the blocks cover the output, and it ends holding that layer.
-/
import proofs.«177770_j49933289783570_1_alg».proof.Proof.Gen.KernelIdeal.Frame
import proofs.«177770_j49933289783570_1_alg».proof.Proof.KernelBody
import Idealize.ShloMosaic.Lib.Pipeline.Value
set_option maxRecDepth 16384
noncomputable section
namespace Cert.Gnn.Region
open Idealize.ShloMosaic Idealize.ShloMosaic.TcCoe Idealize.ShloMosaic.ValueIdx Idealize.SL.Sem
open Cert.KernelIdeal Cert.KernelIdeal.Gen Cert.Lib.LinearLayer Cert.Gnn
open Idealize.ShloMosaic.Pipeline (Dat Cfg Window)

variable (V : (c : Dev nD) → (b : Ref sig .tc) → Buf (Elt Ideal) ((c : Thread nD τ).loc b))

theorem hz_1 : (![0, 0] : Fin 2 → Nat) = fun _ => 0 := funext fun a => by fin_cases a <;> rfl

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 2000·t + p of the array. -/
theorem row_lt1 (t : Fin cfg1.N) (p : Fin 2000) : t.val * 2000 + p.val < 50000 := by
  have h := t.isLt; have hN : cfg1.N = 25 := N_1; have hp := p.isLt; omega

theorem emb1_5 (t : Fin cfg1.N) (p : Fin 2000) (q : Fin 256) :
    ((cfg1.win 5).blk t).view.emb (ix2 p q) = (ix2 (⟨t.val * 2000 + p.val, row_lt1 t p⟩ : Fin 50000) q : S50000x256.Idx) := by
  obtain ⟨-, -, -, -, -, -, -, -, -, -, e0, e1⟩ := idx1 t
  funext a; apply Fin.ext
  match a with
  | ⟨0, _⟩ => show win1_5.index t (0 : Fin 2) * 2000 + 1 * p.val = t.val * 2000 + p.val; omega
  | ⟨1, _⟩ => show win1_5.index t (1 : Fin 2) * 256 + 1 * q.val = q.val; omega

theorem read1_0 (c : Dev nD) (t : Fin cfg1.N) (p : Fin 2000) (k : Fin 256) :
    iblk1 V c 0 t (ix2 p k) = V c main_v31 (ix2 (⟨t.val * 2000 + p.val, row_lt1 t p⟩ : Fin 50000) k) := by
  obtain ⟨e0, e1, -⟩ := idx1 t
  show V c main_v31 (((cfg1.win 0).blk t).view.emb (ix2 p k)) = _
  refine congrArg (V c main_v31) ?_
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

theorem read1_1 (c : Dev nD) (t : Fin cfg1.N) (p : Fin 2000) (k : Fin 256) :
    iblk1 V c 1 t (ix2 p k) = V c main_v18 (ix2 (⟨t.val * 2000 + p.val, row_lt1 t p⟩ : Fin 50000) k) := by
  obtain ⟨-, -, e0, e1, -⟩ := idx1 t
  show V c main_v18 (((cfg1.win 1).blk t).view.emb (ix2 p k)) = _
  refine congrArg (V c main_v18) ?_
  funext a; apply Fin.ext
  match a with
  | ⟨0, _⟩ => show win1_1.index t (0 : Fin 2) * 2000 + 1 * p.val = t.val * 2000 + p.val; omega
  | ⟨1, _⟩ => show win1_1.index t (1 : Fin 2) * 256 + 1 * k.val = k.val; omega

theorem read1_2 (c : Dev nD) (t : Fin cfg1.N) : iblk1 V c 2 t = V c main_arg7 := by
  obtain ⟨-, -, -, -, e0, e1, -⟩ := idx1 t
  funext j
  show V c main_arg7 (((cfg1.win 2).blk t).view.emb j) = _
  refine congrArg (V c main_arg7) ?_
  funext a; apply Fin.ext
  match a with
  | ⟨0, _⟩ => show win1_2.index t (0 : Fin 2) * 256 + 1 * (j 0).val = (j 0).val; omega
  | ⟨1, _⟩ => show win1_2.index t (1 : Fin 2) * 256 + 1 * (j 1).val = (j 1).val; omega

theorem read1_3 (c : Dev nD) (t : Fin cfg1.N) : iblk1 V c 3 t = V c main_v32 := by
  obtain ⟨-, -, -, -, -, -, e0, e1, -⟩ := idx1 t
  funext j
  show V c main_v32 (((cfg1.win 3).blk t).view.emb j) = _
  refine congrArg (V c main_v32) ?_
  funext a; apply Fin.ext
  match a with
  | ⟨0, _⟩ => show win1_3.index t (0 : Fin 2) * 1 + 1 * (j 0).val = (j 0).val; omega
  | ⟨1, _⟩ => show win1_3.index t (1 : Fin 2) * 256 + 1 * (j 1).val = (j 1).val; omega

theorem read1_4 (c : Dev nD) (t : Fin cfg1.N) : iblk1 V c 4 t = V c main_arg9 := by
  obtain ⟨-, -, -, -, -, -, -, -, e0, e1, -⟩ := idx1 t
  funext j
  show V c main_arg9 (((cfg1.win 4).blk t).view.emb j) = _
  refine congrArg (V c main_arg9) ?_
  funext a; apply Fin.ext
  match a with
  | ⟨0, _⟩ => show win1_4.index t (0 : Fin 2) * 256 + 1 * (j 0).val = (j 0).val; omega
  | ⟨1, _⟩ => show win1_4.index t (1 : Fin 2) * 256 + 1 * (j 1).val = (j 1).val; omega

theorem flushed1 (c : Dev nD) (t : Fin cfg1.N) :
    (dat1 V c).flushed 5 t = ((cfg1.win 5).blk t).view.read (Elt Ideal)
      (reluLayer (V c main_v31) (V c main_v18) (V c main_arg7) (V c main_arg9) (V c main_v32)) := by
  show (cfg1.win 5).cut (grid1.coords t) ((dat1 V c).after 5 t) = _
  rw [after1_5]
  unfold out1_5
  rw [View.canon_unit_zero hz_1]
  simp only [View.ld_unit_zero (S := S2000x256) hz_1, View.ld_unit_zero (S := S256x256) hz_1, View.ld_unit_zero (S := S1x256) hz_1]
  funext j
  obtain ⟨p, q, rfl⟩ : ∃ (p : Fin 2000) (q : Fin 256), j = ix2 p q := ⟨j 0, j 1, eq_ix2 (n0 := 2000) (n1 := 256) j⟩
  show k1_pay1 (iblk1 V c 0 t) (iblk1 V c 1 t) (iblk1 V c 2 t) (iblk1 V c 4 t) (iblk1 V c 3 t) (ix2 p q)
    = reluLayer (V c main_v31) (V c main_v18) (V c main_arg7) (V c main_arg9) (V c main_v32) (((cfg1.win 5).blk t).view.emb (ix2 p q))
  refine (Cert.Gnn.Body.conv2_apply (iblk1 V c 0 t) (iblk1 V c 1 t) (iblk1 V c 2 t) (iblk1 V c 4 t) (iblk1 V c 3 t) p q).trans ?_
  rw [read1_2, read1_3, read1_4, emb1_5]
  exact reluLayer_rows _ _ _ _ _ _ _ p _ q (fun k => read1_0 V c t p k) (fun k => read1_1 V c t p k)

/-- An index of the output array is in point t's block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v33).slice (win1_5.rect t)).set ↔ _
  rw [View.set_slice_whole, Rect.mem_set_unit]
  exact Iff.rfl

/-- Row r of the output array is in the block of point r / 2000. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have ht : (i 0).val / 2000 < cfg1.N := by omega
  obtain ⟨-, -, -, -, -, -, -, -, -, -, e0, e1⟩ := idx1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    have e0' : win1_5.index ⟨(i 0).val / 2000, ht⟩ (0 : Fin 2) = (i 0).val / 2000 := e0
    omega
  | ⟨1, _⟩ =>
    show win1_5.index ⟨(i 0).val / 2000, ht⟩ (1 : Fin 2) * 256 ≤ (i 1).val
      ∧ (i 1).val < win1_5.index ⟨(i 0).val / 2000, ht⟩ (1 : Fin 2) * 256 + 256
    omega

/-- The second convolution's output array after the region: the layer of the arrays the region found. -/
theorem final1 (c : Dev nD) :
    (dat1 V c).arrAt 5 cfg1.N
      = reluLayer (V c main_v31) (V c main_v18) (V c main_arg7) (V c main_arg9) (V c main_v32) :=
  (dat1 V c).arrAt_eq_of_cover 5 _ (fun t _ => flushed1 V c t) cover1

end Cert.Gnn.Region
end
-- ==== Proof.Region2.lean ====
/-
  The head's region: its output array after the run, as one function of the arrays the region finds.

  The grid has one point, and every window's block is its whole array: the body's result for the pooled array, the two
  weights and the two bias rows is written back over the whole output, which ends holding the head of those arrays.
-/
import proofs.«177770_j49933289783570_1_alg».proof.Proof.Gen.KernelIdeal.Frame
import proofs.«177770_j49933289783570_1_alg».proof.Proof.KernelBody
import Idealize.ShloMosaic.Lib.Pipeline.Value
set_option maxRecDepth 16384
noncomputable section
namespace Cert.Gnn.Region
open Idealize.ShloMosaic Idealize.ShloMosaic.TcCoe Idealize.ShloMosaic.ValueIdx Idealize.SL.Sem
open Cert.KernelIdeal Cert.KernelIdeal.Gen Cert.Lib.LinearLayer Cert.Gnn
open Idealize.ShloMosaic.Pipeline (Dat Cfg Window)

variable (V : (c : Dev nD) → (b : Ref sig .tc) → Buf (Elt Ideal) ((c : Thread nD τ).loc b))

theorem hz_2 : (![0, 0] : Fin 2 → Nat) = fun _ => 0 := funext fun a => by fin_cases a <;> rfl

/-- Every window's block index is (0, 0) at the one grid point. -/
theorem idx2 : ∀ t : Fin cfg2.N, win2_0.index t (0 : Fin 2) = 0
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0 :=
  (by decide +kernel : ∀ t : Fin grid2.N, _)

theorem read2_0 (c : Dev nD) (t : Fin cfg2.N) : iblk2 V c 0 t = V c main_v36 := by
  obtain ⟨e0, e1, -⟩ := idx2 t
  funext j
  show V c main_v36 (((cfg2.win 0).blk t).view.emb j) = _
  refine congrArg (V c main_v36) ?_
  funext a; apply Fin.ext
  match a with
  | ⟨0, _⟩ => show win2_0.index t (0 : Fin 2) * 128 + 1 * (j 0).val = (j 0).val; omega
  | ⟨1, _⟩ => show win2_0.index t (1 : Fin 2) * 256 + 1 * (j 1).val = (j 1).val; omega

theorem read2_1 (c : Dev nD) (t : Fin cfg2.N) : iblk2 V c 1 t = V c main_arg10 := by
  obtain ⟨-, -, e0, e1, -⟩ := idx2 t
  funext j
  show V c main_arg10 (((cfg2.win 1).blk t).view.emb j) = _
  refine congrArg (V c main_arg10) ?_
  funext a; apply Fin.ext
  match a with
  | ⟨0, _⟩ => show win2_1.index t (0 : Fin 2) * 256 + 1 * (j 0).val = (j 0).val; omega
  | ⟨1, _⟩ => show win2_1.index t (1 : Fin 2) * 256 + 1 * (j 1).val = (j 1).val; omega

theorem read2_2 (c : Dev nD) (t : Fin cfg2.N) : iblk2 V c 2 t = V c main_v37 := by
  obtain ⟨-, -, -, -, e0, e1, -⟩ := idx2 t
  funext j
  show V c main_v37 (((cfg2.win 2).blk t).view.emb j) = _
  refine congrArg (V c main_v37) ?_
  funext a; apply Fin.ext
  match a with
  | ⟨0, _⟩ => show win2_2.index t (0 : Fin 2) * 1 + 1 * (j 0).val = (j 0).val; omega
  | ⟨1, _⟩ => show win2_2.index t (1 : Fin 2) * 256 + 1 * (j 1).val = (j 1).val; omega

theorem read2_3 (c : Dev nD) (t : Fin cfg2.N) : iblk2 V c 3 t = V c main_arg12 := by
  obtain ⟨-, -, -, -, -, -, e0, e1, -⟩ := idx2 t
  funext j
  show V c main_arg12 (((cfg2.win 3).blk t).view.emb j) = _
  refine congrArg (V c main_arg12) ?_
  funext a; apply Fin.ext
  match a with
  | ⟨0, _⟩ => show win2_3.index t (0 : Fin 2) * 10 + 1 * (j 0).val = (j 0).val; omega
  | ⟨1, _⟩ => show win2_3.index t (1 : Fin 2) * 256 + 1 * (j 1).val = (j 1).val; omega

theorem read2_4 (c : Dev nD) (t : Fin cfg2.N) : iblk2 V c 4 t = V c main_v38 := by
  obtain ⟨-, -, -, -, -, -, -, -, e0, e1, -⟩ := idx2 t
  funext j
  show V c main_v38 (((cfg2.win 4).blk t).view.emb j) = _
  refine congrArg (V c main_v38) ?_
  funext a; apply Fin.ext
  match a with
  | ⟨0, _⟩ => show win2_4.index t (0 : Fin 2) * 1 + 1 * (j 0).val = (j 0).val; omega
  | ⟨1, _⟩ => show win2_4.index t (1 : Fin 2) * 10 + 1 * (j 1).val = (j 1).val; omega

theorem emb2_5 (t : Fin cfg2.N) (p : Fin 128) (q : Fin 10) :
    ((cfg2.win 5).blk t).view.emb (ix2 p q) = (ix2 p q : S128x10.Idx) := by
  obtain ⟨-, -, -, -, -, -, -, -, -, -, e0, e1⟩ := idx2 t
  funext a; apply Fin.ext
  match a with
  | ⟨0, _⟩ => show win2_5.index t (0 : Fin 2) * 128 + 1 * p.val = p.val; omega
  | ⟨1, _⟩ => show win2_5.index t (1 : Fin 2) * 10 + 1 * q.val = q.val; omega

/-- What the one point writes back is the head of the whole arrays. -/
theorem flushed2 (c : Dev nD) (t : Fin cfg2.N) :
    (dat2 V c).flushed 5 t = ((cfg2.win 5).blk t).view.read (Elt Ideal)
      (head (V c main_v36) (V c main_arg10) (V c main_v37) (V c main_arg12) (V c main_v38)) := by
  show (cfg2.win 5).cut (grid2.coords t) ((dat2 V c).after 5 t) = _
  rw [after2_5]
  unfold out2_5
  rw [View.canon_unit_zero hz_2]
  simp only [View.ld_unit_zero (S := S128x256) hz_2, View.ld_unit_zero (S := S256x256) hz_2, View.ld_unit_zero (S := S1x256) hz_2,
    View.ld_unit_zero (S := S10x256) hz_2, View.ld_unit_zero (S := S1x10) hz_2]
  funext j
  obtain ⟨p, q, rfl⟩ : ∃ (p : Fin 128) (q : Fin 10), j = ix2 p q := ⟨j 0, j 1, eq_ix2 (n0 := 128) (n1 := 10) j⟩
  show k2_pay1 (iblk2 V c 0 t) (iblk2 V c 1 t) (iblk2 V c 3 t) (iblk2 V c 2 t) (iblk2 V c 4 t) (ix2 p q)
    = head (V c main_v36) (V c main_arg10) (V c main_v37) (V c main_arg12) (V c main_v38) (((cfg2.win 5).blk t).view.emb (ix2 p q))
  refine (Cert.Gnn.Body.head_apply (iblk2 V c 0 t) (iblk2 V c 1 t) (iblk2 V c 3 t) (iblk2 V c 2 t) (iblk2 V c 4 t) p q).trans ?_
  rw [read2_0, read2_1, read2_2, read2_3, read2_4, emb2_5]

/-- An index of the output array is in the point's block iff each coordinate is in the block's range on its axis. -/
theorem mem_blk2 (t : Fin cfg2.N) (i : S128x10.Idx) :
    i ∈ ((cfg2.win 5).blk t).view.set ↔ ∀ a : Fin 2, win2_5.index t a * S128x10.size a ≤ (i a).val
      ∧ (i a).val < win2_5.index t a * S128x10.size a + S128x10.size a := by
  show i ∈ ((View.whole main_v39).slice (win2_5.rect t)).set ↔ _
  rw [View.set_slice_whole, Rect.mem_set_unit]
  exact Iff.rfl

/-- The one block is the whole output. -/
theorem cover2 (i : S128x10.Idx) :
    ∃ t : Fin cfg2.N, (cfg2.win 5).flush t = true ∧ i ∈ ((cfg2.win 5).blk t).view.set := by
  have hi0 : (i 0).val < 128 := (i 0).isLt
  have hi1 : (i 1).val < 10 := (i 1).isLt
  obtain ⟨-, -, -, -, -, -, -, -, -, -, e0, e1⟩ := idx2 t2_0
  refine ⟨t2_0, flush2_5 _, ?_⟩
  rw [mem_blk2]
  intro a
  match a with
  | ⟨0, _⟩ =>
    show win2_5.index t2_0 (0 : Fin 2) * 128 ≤ (i 0).val ∧ (i 0).val < win2_5.index t2_0 (0 : Fin 2) * 128 + 128
    omega
  | ⟨1, _⟩ =>
    show win2_5.index t2_0 (1 : Fin 2) * 10 ≤ (i 1).val ∧ (i 1).val < win2_5.index t2_0 (1 : Fin 2) * 10 + 10
    omega

/-- The head's output array after the region: the head of the arrays the region found. -/
theorem final2 (c : Dev nD) :
    (dat2 V c).arrAt 5 cfg2.N
      = head (V c main_v36) (V c main_arg10) (V c main_v37) (V c main_arg12) (V c main_v38) :=
  (dat2 V c).arrAt_eq_of_cover 5 _ (fun t _ => flushed2 V c t) cover2

end Cert.Gnn.Region
end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.KernelValue.lean ====
/-
  The idealized kernel's result buffer at the last segment boundary, as the network of the launch contents.

  The contents of every buffer are followed through the six segments. The first stretch of host operations leaves the
  first weighted neighbour sum of the features, the edges' sources and targets and the first bias as a row; the first
  region leaves the first convolution of them in its output; the second stretch gathers from that output with the same
  sources, weights and targets; the second region leaves the second convolution; the third stretch adds its rows per graph
  and lays the head's biases as rows; the third region leaves the head of the pooled array. A buffer that a stretch does
  not write and that is not one of a region's arrays keeps its contents, so every argument is read at its launch contents.
-/
import proofs.«177770_j49933289783570_1_alg».proof.Proof.Gen.KernelIdeal.Frame
import proofs.«177770_j49933289783570_1_alg».proof.Proof.Region0
import proofs.«177770_j49933289783570_1_alg».proof.Proof.Region1
import proofs.«177770_j49933289783570_1_alg».proof.Proof.Region2
import proofs.«177770_j49933289783570_1_alg».proof.Proof.LibRowLayout
import Idealize.ShloMosaic.Lib.StableHlo.Run
import Idealize.ShloMosaic.PureOps.Ideal

set_option maxRecDepth 16384

noncomputable section

namespace Cert.Gnn.Ker

open Idealize.ShloMosaic Idealize.ShloMosaic.TcCoe Idealize.ShloMosaic.ValueIdx Idealize.SL.Sem Idealize.ShloMosaic.StableHlo
open Cert.KernelIdeal Cert.KernelIdeal.Gen Cert.Lib.LinearLayer Cert.Gnn

/-- The edges' source nodes: row 0 of the edge array. -/
def src (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000

/-- The edges' target nodes: row 1 of the edge array. -/
def dst (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- The source nodes as the gathers read them: a negative index counts from the end. -/
def srcWrapped (s : (⟨S800000, .i32⟩ : BufTy).Contents (Elt Ideal)) : (⟨S800000, .i32⟩ : BufTy).Contents (Elt Ideal) :=
  select (cmpi .slt s (broadcastInDim S800000 ![] bcast_S_S800000 (constantI S_ 32 0#32)))
    (addi s (broadcastInDim S800000 ![] bcast_S_S800000 (constantI S_ 32 50000#32))) s

/-- The first weighted neighbour sum, as the program's host operations spell it, of a feature array [n, 128]. -/
def agg1 (x1 : (⟨S2x800000, .i32⟩ : BufTy).Contents (Elt Ideal)) (x3 : (⟨S800000, .f32⟩ : BufTy).Contents (Elt Ideal))
    (x : Mat 50000 128) : Mat 50000 128 :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dst x1))
    (mulf (F := Ideal) (φ := .f32)
      (Host.gather gather_S50000x128_S800000x1_S800000x128_1_0_n_n_0_1_1128 x
        (broadcastInDim S800000x1 ![0] bcast_S800000_S800000x1_0 (srcWrapped (src x1))))
      (broadcastInDim S800000x128 ![0, 1] bcast_S800000x1_S800000x128_0_1
        (broadcastInDim S800000x1 ![0] bcast_S800000_S800000x1_0 x3)))

/-- The second weighted neighbour sum, as the program's host operations spell it, of a hidden array [n, 256]. -/
def agg2 (x1 : (⟨S2x800000, .i32⟩ : BufTy).Contents (Elt Ideal)) (x3 : (⟨S800000, .f32⟩ : BufTy).Contents (Elt Ideal))
    (h : Mat 50000 256) : Mat 50000 256 :=
  Host.scatterAdd (F := Ideal) (φ := .f32) scatter_S50000x256_S800000x1_S800000x256_1_0_0_1
    (broadcastInDim S50000x256 ![] bcast_S_S50000x256 (constant (F := Ideal) S_ .f32 0x00000000#32))
    (broadcastInDim S800000x1 ![0] bcast_S800000_S800000x1_0 (dst x1))
    (mulf (F := Ideal) (φ := .f32)
      (Host.gather gather_S50000x256_S800000x1_S800000x256_1_0_n_n_0_1_1256 h
        (broadcastInDim S800000x1 ![0] bcast_S800000_S800000x1_0 (srcWrapped (src x1))))
      (broadcastInDim S800000x256 ![0, 1] bcast_S800000x1_S800000x256_0_1
        (broadcastInDim S800000x1 ![0] bcast_S800000_S800000x1_0 x3)))

/-- The per-graph sum, as the program's host operations spell it, of a hidden array [n, 256]. -/
def pool (x2 : (⟨S50000, .i32⟩ : BufTy).Contents (Elt Ideal)) (h : Mat 50000 256) : Mat 128 256 :=
  Host.scatterAdd (F := Ideal) (φ := .f32) scatter_S128x256_S50000x1_S50000x256_1_0_0_1
    (broadcastInDim S128x256 ![] bcast_S_S128x256 (constant (F := Ideal) S_ .f32 0x00000000#32))
    (broadcastInDim S50000x1 ![0] bcast_S50000_S50000x1_0 x2) h

variable (m : (ℓ : Loc nD τ sig) → Buf (Elt Ideal) ℓ) (ρ : Dev nD → PrngReg) (c : Dev nD)

/-- A vector re-laid as a row is the row the layers read. -/
theorem row_eq {o : Nat} (b : Vect o) (h : (⟨1, ![o]⟩ : Shape).ShapeCasts ⟨2, ![1, o]⟩) :
    shapeCast ⟨2, ![1, o]⟩ b h = rowOf b := by
  funext i
  obtain ⟨p, q, rfl⟩ : ∃ (p : Fin 1) (q : Fin o), i = ix2 p q := ⟨i 0, i 1, eq_ix2 i⟩
  obtain rfl : p = 0 := Subsingleton.elim _ _
  exact Cert.Lib.vecToRow_apply b h q

/-! ## The first stretch of host operations -/

set_option maxHeartbeats 4000000 in
theorem W1_v16 : W1 m ρ c (Proc.devRef .tc main_v16)
    = agg1 (m ((c.tc : Thread nD τ).loc main_arg1)) (m ((c.tc : Thread nD τ).loc main_arg3)) (m ((c.tc : Thread nD τ).loc main_arg0)) := by
  dsimp only [W1, hostOps0]
  after_results_simp
  rfl

theorem W1_v17 : W1 m ρ c (Proc.devRef .tc main_v17) = rowOf (m ((c.tc : Thread nD τ).loc main_arg5)) := by
  refine Eq.trans ?_ (row_eq (m ((c.tc : Thread nD τ).loc main_arg5)) shapeCasts_S256_S1x256)
  dsimp only [W1, hostOps0]
  after_results
  rfl

theorem W1_v1 : W1 m ρ c (Proc.devRef .tc main_v1) = src (m ((c.tc : Thread nD τ).loc main_arg1)) := by
  dsimp only [W1, hostOps0]
  after_results
  rfl

theorem W1_v3 : W1 m ρ c (Proc.devRef .tc main_v3) = dst (m ((c.tc : Thread nD τ).loc main_arg1)) := by
  dsimp only [W1, hostOps0]
  after_results
  rfl

/-! ## Buffers the first stretch leaves alone -/

theorem W1_arg0 : W1 m ρ c (Proc.devRef .tc main_arg0) = m ((c.tc : Thread nD τ).loc main_arg0) := by
  dsimp only [W1, hostOps0]; after_results <;> rfl
theorem W1_arg2 : W1 m ρ c (Proc.devRef .tc main_arg2) = m ((c.tc : Thread nD τ).loc main_arg2) := by
  dsimp only [W1, hostOps0]; after_results <;> rfl
theorem W1_arg3 : W1 m ρ c (Proc.devRef .tc main_arg3) = m ((c.tc : Thread nD τ).loc main_arg3) := by
  dsimp only [W1, hostOps0]; after_results <;> rfl
theorem W1_arg4 : W1 m ρ c (Proc.devRef .tc main_arg4) = m ((c.tc : Thread nD τ).loc main_arg4) := by
  dsimp only [W1, hostOps0]; after_results <;> rfl
theorem W1_arg6 : W1 m ρ c (Proc.devRef .tc main_arg6) = m ((c.tc : Thread nD τ).loc main_arg6) := by
  dsimp only [W1, hostOps0]; after_results <;> rfl
theorem W1_arg7 : W1 m ρ c (Proc.devRef .tc main_arg7) = m ((c.tc : Thread nD τ).loc main_arg7) := by
  dsimp only [W1, hostOps0]; after_results <;> rfl
theorem W1_arg8 : W1 m ρ c (Proc.devRef .tc main_arg8) = m ((c.tc : Thread nD τ).loc main_arg8) := by
  dsimp only [W1, hostOps0]; after_results <;> rfl
theorem W1_arg9 : W1 m ρ c (Proc.devRef .tc main_arg9) = m ((c.tc : Thread nD τ).loc main_arg9) := by
  dsimp only [W1, hostOps0]; after_results <;> rfl
theorem W1_arg10 : W1 m ρ c (Proc.devRef .tc main_arg10) = m ((c.tc : Thread nD τ).loc main_arg10) := by
  dsimp only [W1, hostOps0]; after_results <;> rfl
theorem W1_arg11 : W1 m ρ c (Proc.devRef .tc main_arg11) = m ((c.tc : Thread nD τ).loc main_arg11) := by
  dsimp only [W1, hostOps0]; after_results <;> rfl
theorem W1_arg12 : W1 m ρ c (Proc.devRef .tc main_arg12) = m ((c.tc : Thread nD τ).loc main_arg12) := by
  dsimp only [W1, hostOps0]; after_results <;> rfl
theorem W1_arg13 : W1 m ρ c (Proc.devRef .tc main_arg13) = m ((c.tc : Thread nD τ).loc main_arg13) := by
  dsimp only [W1, hostOps0]; after_results <;> rfl

/-! ## After the first region -/

/-- The first convolution's output buffer holds the layer of the aggregated features and the features. -/
theorem W2_v18 : W2 m ρ c (Proc.devRef .tc main_v18)
    = conv1 (agg1 (m ((c.tc : Thread nD τ).loc main_arg1)) (m ((c.tc : Thread nD τ).loc main_arg3))) (m ((c.tc : Thread nD τ).loc main_arg0)) (m ((c.tc : Thread nD τ).loc main_arg4)) (m ((c.tc : Thread nD τ).loc main_arg6)) (m ((c.tc : Thread nD τ).loc main_arg5)) := by
  refine (W2_arr m ρ c 5).trans ((Region.final0 (V1 m ρ) c).trans ?_)
  show reluLayer (W1 m ρ c (Proc.devRef .tc main_v16)) (W1 m ρ c (Proc.devRef .tc main_arg0)) (W1 m ρ c (Proc.devRef .tc main_arg4))
    (W1 m ρ c (Proc.devRef .tc main_arg6)) (W1 m ρ c (Proc.devRef .tc main_v17)) = _
  rw [W1_v16, W1_arg0, W1_arg4, W1_arg6, W1_v17]
  rfl

theorem W2_v1 : W2 m ρ c (Proc.devRef .tc main_v1) = src (m ((c.tc : Thread nD τ).loc main_arg1)) :=
  (W2_of_ne m ρ c main_v1 (by decide)).trans (W1_v1 m ρ c)
theorem W2_v3 : W2 m ρ c (Proc.devRef .tc main_v3) = dst (m ((c.tc : Thread nD τ).loc main_arg1)) :=
  (W2_of_ne m ρ c main_v3 (by decide)).trans (W1_v3 m ρ c)
theorem W2_arg2 : W2 m ρ c (Proc.devRef .tc main_arg2) = m ((c.tc : Thread nD τ).loc main_arg2) :=
  (W2_of_ne m ρ c main_arg2 (by decide)).trans (W1_arg2 m ρ c)
theorem W2_arg3 : W2 m ρ c (Proc.devRef .tc main_arg3) = m ((c.tc : Thread nD τ).loc main_arg3) :=
  (W2_of_ne m ρ c main_arg3 (by decide)).trans (W1_arg3 m ρ c)
theorem W2_arg7 : W2 m ρ c (Proc.devRef .tc main_arg7) = m ((c.tc : Thread nD τ).loc main_arg7) :=
  (W2_of_ne m ρ c main_arg7 (by decide)).trans (W1_arg7 m ρ c)
theorem W2_arg8 : W2 m ρ c (Proc.devRef .tc main_arg8) = m ((c.tc : Thread nD τ).loc main_arg8) :=
  (W2_of_ne m ρ c main_arg8 (by decide)).trans (W1_arg8 m ρ c)
theorem W2_arg9 : W2 m ρ c (Proc.devRef .tc main_arg9) = m ((c.tc : Thread nD τ).loc main_arg9) :=
  (W2_of_ne m ρ c main_arg9 (by decide)).trans (W1_arg9 m ρ c)
theorem W2_arg10 : W2 m ρ c (Proc.devRef .tc main_arg10) = m ((c.tc : Thread nD τ).loc main_arg10) :=
  (W2_of_ne m ρ c main_arg10 (by decide)).trans (W1_arg10 m ρ c)
theorem W2_arg11 : W2 m ρ c (Proc.devRef .tc main_arg11) = m ((c.tc : Thread nD τ).loc main_arg11) :=
  (W2_of_ne m ρ c main_arg11 (by decide)).trans (W1_arg11 m ρ c)
theorem W2_arg12 : W2 m ρ c (Proc.devRef .tc main_arg12) = m ((c.tc : Thread nD τ).loc main_arg12) :=
  (W2_of_ne m ρ c main_arg12 (by decide)).trans (W1_arg12 m ρ c)
theorem W2_arg13 : W2 m ρ c (Proc.devRef .tc main_arg13) = m ((c.tc : Thread nD τ).loc main_arg13) :=
  (W2_of_ne m ρ c main_arg13 (by decide)).trans (W1_arg13 m ρ c)

/-! ## The second stretch of host operations -/

set_option maxHeartbeats 4000000 in
theorem W3_v31 : W3 m ρ c (Proc.devRef .tc main_v31)
    = agg2 (m ((c.tc : Thread nD τ).loc main_arg1)) (m ((c.tc : Thread nD τ).loc main_arg3)) (W2 m ρ c (Proc.devRef .tc main_v18)) := by
  dsimp only [W3, hostOps1]
  after_results_simp
  rw [W2_v1, W2_v3, W2_arg3]
  rfl

theorem W3_v32 : W3 m ρ c (Proc.devRef .tc main_v32) = rowOf (m ((c.tc : Thread nD τ).loc main_arg8)) := by
  refine Eq.trans ?_ (row_eq (m ((c.tc : Thread nD τ).loc main_arg8)) shapeCasts_S256_S1x256)
  dsimp only [W3, hostOps1]
  after_results
  rw [W2_arg8]
  rfl

theorem W3_v18 : W3 m ρ c (Proc.devRef .tc main_v18) = W2 m ρ c (Proc.devRef .tc main_v18) := by
  dsimp only [W3, hostOps1]; after_results <;> rfl
theorem W3_arg2 : W3 m ρ c (Proc.devRef .tc main_arg2) = m ((c.tc : Thread nD τ).loc main_arg2) := by
  dsimp only [W3, hostOps1]; after_results; exact W2_arg2 m ρ c
theorem W3_arg7 : W3 m ρ c (Proc.devRef .tc main_arg7) = m ((c.tc : Thread nD τ).loc main_arg7) := by
  dsimp only [W3, hostOps1]; after_results; exact W2_arg7 m ρ c
theorem W3_arg9 : W3 m ρ c (Proc.devRef .tc main_arg9) = m ((c.tc : Thread nD τ).loc main_arg9) := by
  dsimp only [W3, hostOps1]; after_results; exact W2_arg9 m ρ c
theorem W3_arg10 : W3 m ρ c (Proc.devRef .tc main_arg10) = m ((c.tc : Thread nD τ).loc main_arg10) := by
  dsimp only [W3, hostOps1]; after_results; exact W2_arg10 m ρ c
theorem W3_arg11 : W3 m ρ c (Proc.devRef .tc main_arg11) = m ((c.tc : Thread nD τ).loc main_arg11) := by
  dsimp only [W3, hostOps1]; after_results; exact W2_arg11 m ρ c
theorem W3_arg12 : W3 m ρ c (Proc.devRef .tc main_arg12) = m ((c.tc : Thread nD τ).loc main_arg12) := by
  dsimp only [W3, hostOps1]; after_results; exact W2_arg12 m ρ c
theorem W3_arg13 : W3 m ρ c (Proc.devRef .tc main_arg13) = m ((c.tc : Thread nD τ).loc main_arg13) := by
  dsimp only [W3, hostOps1]; after_results; exact W2_arg13 m ρ c

/-! ## After the second region -/

/-- The second convolution's output buffer holds the layer of the aggregated first output and the first output. -/
theorem W4_v33 : W4 m ρ c (Proc.devRef .tc main_v33)
    = conv2 (agg1 (m ((c.tc : Thread nD τ).loc main_arg1)) (m ((c.tc : Thread nD τ).loc main_arg3))) (agg2 (m ((c.tc : Thread nD τ).loc main_arg1)) (m ((c.tc : Thread nD τ).loc main_arg3))) (m ((c.tc : Thread nD τ).loc main_arg0)) (m ((c.tc : Thread nD τ).loc main_arg4)) (m ((c.tc : Thread nD τ).loc main_arg6)) (m ((c.tc : Thread nD τ).loc main_arg5)) (m ((c.tc : Thread nD τ).loc main_arg7)) (m ((c.tc : Thread nD τ).loc main_arg9)) (m ((c.tc : Thread nD τ).loc main_arg8)) := by
  refine (W4_arr m ρ c 5).trans ((Region.final1 (V3 m ρ) c).trans ?_)
  show reluLayer (W3 m ρ c (Proc.devRef .tc main_v31)) (W3 m ρ c (Proc.devRef .tc main_v18)) (W3 m ρ c (Proc.devRef .tc main_arg7))
    (W3 m ρ c (Proc.devRef .tc main_arg9)) (W3 m ρ c (Proc.devRef .tc main_v32)) = _
  rw [W3_v31, W3_v18, W3_arg7, W3_arg9, W3_v32, W2_v18]
  rfl

theorem W4_arg2 : W4 m ρ c (Proc.devRef .tc main_arg2) = m ((c.tc : Thread nD τ).loc main_arg2) :=
  (W4_of_ne m ρ c main_arg2 (by decide)).trans (W3_arg2 m ρ c)
theorem W4_arg10 : W4 m ρ c (Proc.devRef .tc main_arg10) = m ((c.tc : Thread nD τ).loc main_arg10) :=
  (W4_of_ne m ρ c main_arg10 (by decide)).trans (W3_arg10 m ρ c)
theorem W4_arg11 : W4 m ρ c (Proc.devRef .tc main_arg11) = m ((c.tc : Thread nD τ).loc main_arg11) :=
  (W4_of_ne m ρ c main_arg11 (by decide)).trans (W3_arg11 m ρ c)
theorem W4_arg12 : W4 m ρ c (Proc.devRef .tc main_arg12) = m ((c.tc : Thread nD τ).loc main_arg12) :=
  (W4_of_ne m ρ c main_arg12 (by decide)).trans (W3_arg12 m ρ c)
theorem W4_arg13 : W4 m ρ c (Proc.devRef .tc main_arg13) = m ((c.tc : Thread nD τ).loc main_arg13) :=
  (W4_of_ne m ρ c main_arg13 (by decide)).trans (W3_arg13 m ρ c)

/-! ## The third stretch of host operations -/

theorem W5_v36 : W5 m ρ c (Proc.devRef .tc main_v36) = pool (m ((c.tc : Thread nD τ).loc main_arg2)) (W4 m ρ c (Proc.devRef .tc main_v33)) := by
  dsimp only [W5, hostOps2]
  after_results
  rw [W4_arg2]
  rfl

theorem W5_v37 : W5 m ρ c (Proc.devRef .tc main_v37) = rowOf (m ((c.tc : Thread nD τ).loc main_arg11)) := by
  refine Eq.trans ?_ (row_eq (m ((c.tc : Thread nD τ).loc main_arg11)) shapeCasts_S256_S1x256)
  dsimp only [W5, hostOps2]
  after_results
  rw [W4_arg11]
  rfl

theorem W5_v38 : W5 m ρ c (Proc.devRef .tc main_v38) = rowOf (m ((c.tc : Thread nD τ).loc main_arg13)) := by
  refine Eq.trans ?_ (row_eq (m ((c.tc : Thread nD τ).loc main_arg13)) shapeCasts_S10_S1x10)
  dsimp only [W5, hostOps2]
  after_results
  rw [W4_arg13]
  rfl

theorem W5_arg10 : W5 m ρ c (Proc.devRef .tc main_arg10) = m ((c.tc : Thread nD τ).loc main_arg10) := by
  dsimp only [W5, hostOps2]; after_results; exact W4_arg10 m ρ c
theorem W5_arg12 : W5 m ρ c (Proc.devRef .tc main_arg12) = m ((c.tc : Thread nD τ).loc main_arg12) := by
  dsimp only [W5, hostOps2]; after_results; exact W4_arg12 m ρ c

/-! ## After the third region -/

/-- THE KERNEL'S VALUE: the result buffer's contents at the last boundary are the network of the launch contents. -/
theorem value : W6 m ρ c (Proc.devRef .tc main_v39)
    = net (agg1 (m ((c.tc : Thread nD τ).loc main_arg1)) (m ((c.tc : Thread nD τ).loc main_arg3))) (agg2 (m ((c.tc : Thread nD τ).loc main_arg1)) (m ((c.tc : Thread nD τ).loc main_arg3))) (pool (m ((c.tc : Thread nD τ).loc main_arg2)))
        (m ((c.tc : Thread nD τ).loc main_arg0)) (m ((c.tc : Thread nD τ).loc main_arg4)) (m ((c.tc : Thread nD τ).loc main_arg6)) (m ((c.tc : Thread nD τ).loc main_arg5)) (m ((c.tc : Thread nD τ).loc main_arg7)) (m ((c.tc : Thread nD τ).loc main_arg9)) (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg13)) := by
  refine (W6_arr m ρ c 5).trans ((Region.final2 (V5 m ρ) c).trans ?_)
  show head (W5 m ρ c (Proc.devRef .tc main_v36)) (W5 m ρ c (Proc.devRef .tc main_arg10)) (W5 m ρ c (Proc.devRef .tc main_v37))
    (W5 m ρ c (Proc.devRef .tc main_arg12)) (W5 m ρ c (Proc.devRef .tc main_v38)) = _
  rw [W5_v36, W5_arg10, W5_v37, W5_arg12, W5_v38, W4_v33]
  rfl

end Cert.Gnn.Ker

end
-- ==== Proof.LibHostLogistic.lean ====
/-
  The logistic function and the swish as a host program spells them, and a bias vector added to every row of a matrix,
  read at an index over the extended reals. Independent of any program.

  A host program may spell σ(z) out as 1 / (1 + e^(-z)) in four elementwise operations — negate, exponential, add,
  divide — with the scalar 1.0 broadcast to the array's shape; the swish is z times that. Over the extended reals the f32 word of
  1.0 denotes 1, and `Ideal.logistic z` is by definition `Ideal.div 1 (1 + Ideal.exp (-z))`: so the spelt-out quotient
  IS the logistic function at every index, infinities included. A bias vector [f] broadcast to the row [1, f] and then
  down n rows contributes its entry q to entry (p, q).
-/
import Idealize.ShloMosaic.Lib.ValueIdx
import Idealize.ShloMosaic.Lib.Pipeline.Value
import Idealize.ShloMosaic.PureOps.Ideal
import Idealize.ShloMosaic.PureOps.IdealRules

noncomputable section

namespace Cert.Lib

open Idealize.ShloMosaic Idealize.ShloMosaic.ValueIdx

/-- The f32 word of 1.0 denotes the extended real 1. -/
theorem one_f32 : Ideal.ofBits .f32 0x3F800000#32 = 1 := IdealRules.sign_bit.ideal_onePat .f32

/-- The scalar 1.0 broadcast to any shape is 1 at every index. -/
theorem ones_apply {s : Shape} (h0 : (⟨0, ![]⟩ : Shape).BroadcastsInDim s ![]) (i : s.Idx) :
    broadcastInDim s ![] h0 (constant (F := Ideal) ⟨0, ![]⟩ .f32 0x3F800000#32) i = 1 :=
  (broadcastInDim_apply ![] h0 _ i ix0 (fun a => a.elim0)).trans one_f32

/-- 1 / (1 + e^(-z)), spelt in the host's operations, is the logistic function at every index. -/
theorem hostLogistic_apply {s : Shape} (z : FVec Ideal s .f32) (h0 : (⟨0, ![]⟩ : Shape).BroadcastsInDim s ![]) (i : s.Idx) :
    Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z))) i
      = Ideal.logistic (z i) := by
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(z i)))
    = Ideal.div 1 (1 + Ideal.exp (-(z i)))
  rw [ones_apply h0 i]

/-- z · (1 / (1 + e^(-z))), spelt in the host's operations, is z · σ(z) at every index. -/
theorem hostSwish_apply {s : Shape} (z : FVec Ideal s .f32) (h0 : (⟨0, ![]⟩ : Shape).BroadcastsInDim s ![]) (i : s.Idx) :
    mulf z (Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z)))) i
      = z i * Ideal.logistic (z i) :=
  congrArg (z i * ·) (hostLogistic_apply z h0 i)

/-- A bias vector [f] broadcast to the row [1, f], then down n rows, and added: entry (p, q) gains the vector's entry q. -/
theorem hostRowBias_apply {n f : Nat} (a : FVec Ideal ⟨2, ![n, f]⟩ .f32) (b : FVec Ideal ⟨1, ![f]⟩ .f32)
    (h1 : (⟨1, ![f]⟩ : Shape).BroadcastsInDim ⟨2, ![1, f]⟩ ![1])
    (h2 : (⟨2, ![1, f]⟩ : Shape).BroadcastsInDim ⟨2, ![n, f]⟩ ![0, 1]) (p : Fin n) (q : Fin f) :
    addf a (broadcastInDim ⟨2, ![n, f]⟩ ![0, 1] h2 (broadcastInDim ⟨2, ![1, f]⟩ ![1] h1 b)) (ix2 p q)
      = a (ix2 p q) + b (ix1 q) := by
  have hq := q.isLt
  have e2 : broadcastInDim ⟨2, ![n, f]⟩ ![0, 1] h2 (broadcastInDim ⟨2, ![1, f]⟩ ![1] h1 b) (ix2 p q)
      = broadcastInDim ⟨2, ![1, f]⟩ ![1] h1 b (ix2 0 q) :=
    broadcastInDim_apply ![0, 1] h2 _ (ix2 p q) (ix2 0 q) (fun d => by
      match d with
      | ⟨0, _⟩ => show (0 : Nat) = if (1 : Nat) = 1 then 0 else p.val; rw [if_pos rfl]
      | ⟨1, _⟩ => show q.val = if f = 1 then 0 else q.val; split <;> omega)
  have e1 : broadcastInDim ⟨2, ![1, f]⟩ ![1] h1 b (ix2 0 q) = b (ix1 q) :=
    broadcastInDim_apply ![1] h1 b (ix2 0 q) (ix1 q) (fun d => by
      match d with
      | ⟨0, _⟩ => show q.val = if f = 1 then 0 else q.val; split <;> omega)
  show a (ix2 p q) + _ = a (ix2 p q) + b (ix1 q)
  rw [e2, e1]

end Cert.Lib

end
-- ==== Proof.RefValue.lean ====
/-
  The reference program's result, as the network function of its argument arrays over the extended reals.

  The reference applies two graph convolutions, each  max (A(h) · Wrelᵀ + b + h · Wrootᵀ, 0),  where A(h) adds into every
  node's row the rows of h at the sources of that node's incoming edges, each scaled by its edge weight; it then adds the node
  rows of each graph into one row per graph, g, and ends with  σ (max (g · W1ᵀ + b1, 0) · W2ᵀ + b2).

  The three data-dependent steps (the two weighted neighbour sums and the per-graph sum) are kept exactly as the program writes
  them, as functions of the array they read: `agg1`, `agg2`, `pool`. Nothing is proved about them beyond the fact that the
  program applies these very functions. Everything between them is read at one output entry (p, q): a product with a transposed
  weight [o, k] is the sum over the shared axis j of  left (p, j) · weight (q, j);  a bias vector broadcast down the rows adds its
  entry q; the maximum with the zero word is taken entry by entry; and 1 / (1 + e^(-z)), with 1 spelt as the f32 word of 1.0, is
  the logistic function of z. Entry by entry that is the layer formula of the specification, so each stage is the specification's
  layer of the stage before it, and the three stages compose to the network.
-/
import proofs.«177770_j49933289783570_1_alg».proof.Proof.Gen.ReferenceIdeal.Read
import proofs.«177770_j49933289783570_1_alg».proof.Proof.Network
import proofs.«177770_j49933289783570_1_alg».proof.Proof.LibHostLogistic
import Idealize.ShloMosaic.Lib.ValueIdx
import Idealize.ShloMosaic.Lib.Pipeline.Value
import Idealize.ShloMosaic.PureOps.Ideal.Laws

noncomputable section

namespace Cert.Gnn.Ref

open Cert.ReferenceIdeal Cert.ReferenceIdeal.Gen Idealize.ShloMosaic Idealize.ShloMosaic.TcCoe Idealize.SL.Sem
  Idealize.ShloMosaic.StableHlo Idealize.ShloMosaic.ValueIdx Cert.Lib.LinearLayer Cert.ReferenceIdeal

/-- The first weighted neighbour sum, as a function of the feature array [n, 128]: for every edge the source node's row times
    the edge's weight, added into the row of the edge's target node, starting from zero. -/
def agg1 (x1 : (⟨S2x800000, .i32⟩ : BufTy).Contents (Elt Ideal)) (x3 : (⟨S800000, .f32⟩ : BufTy).Contents (Elt Ideal))
    (x : Mat 50000 128) : Mat 50000 128 :=
  Read.val_main_v16 (F := Ideal) x x1 x3

/-- The first convolution stage at entry (p, q):  max ((∑ j, A(x) (p, j) · Wrel (q, j)) + b q + ∑ j, x (p, j) · Wroot (q, j), 0). -/
theorem layer1 (x0 : (⟨S50000x128, .f32⟩ : BufTy).Contents (Elt Ideal)) (x1 : (⟨S2x800000, .i32⟩ : BufTy).Contents (Elt Ideal))
    (x3 : (⟨S800000, .f32⟩ : BufTy).Contents (Elt Ideal)) (x4 : (⟨S256x128, .f32⟩ : BufTy).Contents (Elt Ideal))
    (x5 : (⟨S256, .f32⟩ : BufTy).Contents (Elt Ideal)) (x6 : (⟨S256x128, .f32⟩ : BufTy).Contents (Elt Ideal)) :
    Read.val_main_v25 (F := Ideal) x0 x1 x3 x4 x5 x6 = reluLayer (agg1 x1 x3 x0) x0 x4 x6 (rowOf x5) := by
  funext i
  obtain ⟨p, q, rfl⟩ : ∃ (p : Fin 50000) (q : Fin 256), i = ix2 p q := ⟨i 0, i 1, eq_ix2 i⟩
  have el : ∀ k : Fin 128, Read.lidx_main_v18 (ix2 p q) k = ix2 p k := fun k =>
    funext fun a => Fin.ext (by match a with | ⟨0, _⟩ => rfl | ⟨1, _⟩ => rfl)
  have er : ∀ k : Fin 128, Read.idx_main_v17 (Read.ridx_main_v18 (ix2 p q) k) = ix2 q k := fun k =>
    funext fun a => Fin.ext (by match a with | ⟨0, _⟩ => rfl | ⟨1, _⟩ => rfl)
  have el' : ∀ k : Fin 128, Read.lidx_main_v23 (ix2 p q) k = ix2 p k := fun k =>
    funext fun a => Fin.ext (by match a with | ⟨0, _⟩ => rfl | ⟨1, _⟩ => rfl)
  have er' : ∀ k : Fin 128, Read.idx_main_v22 (Read.ridx_main_v23 (ix2 p q) k) = ix2 q k := fun k =>
    funext fun a => Fin.ext (by match a with | ⟨0, _⟩ => rfl | ⟨1, _⟩ => rfl)
  have eb : Read.idx_main_v19 (Read.idx_main_v20 (ix2 p q)) = ix1 q :=
    funext fun a => Fin.ext (by match a with | ⟨0, _⟩ => rfl)
  rw [Read.val_main_v25_apply, Read.val_main_v24_apply, Read.val_main_v21_apply, Read.val_main_v18_apply,
    Read.val_main_v20_apply, Read.val_main_v19_apply, Read.val_main_v23_apply, Read.val_main_call0_v0_apply,
    Read.val_main_call0_cst_apply]
  unfold agg1
  generalize Read.val_main_v16 (F := Ideal) x0 x1 x3 = a
  simp only [Read.val_main_v17_apply, Read.val_main_v22_apply, el, er, el', er', eb]
  rfl

/-- The second weighted neighbour sum, as a function of the hidden array [n, 256]: the same edges and weights as the first,
    over rows of width 256. -/
def agg2 (x1 : (⟨S2x800000, .i32⟩ : BufTy).Contents (Elt Ideal)) (x3 : (⟨S800000, .f32⟩ : BufTy).Contents (Elt Ideal))
    (h : Mat 50000 256) : Mat 50000 256 :=
  Host.scatterAdd (F := Ideal) (φ := .f32) scatter_S50000x256_S800000x1_S800000x256_1_0_0_1 (Read.val_main_v36 (F := Ideal))
    (Read.val_main_v37 (F := Ideal) x1)
    (mulf (F := Ideal) (φ := .f32) (Host.gather (α := Ideal .f32) gather_S50000x256_S800000x1_S800000x256_1_0_n_n_0_1_1256 h (Read.val_main_v31 (F := Ideal) x1))
      (Read.val_main_v34 (F := Ideal) x3))

/-- The second neighbour sum the program computes is `agg2` of the first convolution's output: the two are the same expression. -/
theorem agg2_stage (x0 : (⟨S50000x128, .f32⟩ : BufTy).Contents (Elt Ideal)) (x1 : (⟨S2x800000, .i32⟩ : BufTy).Contents (Elt Ideal))
    (x3 : (⟨S800000, .f32⟩ : BufTy).Contents (Elt Ideal)) (x4 : (⟨S256x128, .f32⟩ : BufTy).Contents (Elt Ideal))
    (x5 : (⟨S256, .f32⟩ : BufTy).Contents (Elt Ideal)) (x6 : (⟨S256x128, .f32⟩ : BufTy).Contents (Elt Ideal)) :
    Read.val_main_v38 (F := Ideal) x0 x1 x3 x4 x5 x6 = agg2 x1 x3 (Read.val_main_v25 (F := Ideal) x0 x1 x3 x4 x5 x6) := by
  unfold Read.val_main_v38 Read.val_main_v35 Read.val_main_v32 agg2
  rfl

/-- The second convolution stage at entry (p, q), over the first stage's output h:
    max ((∑ j, A(h) (p, j) · Wrel (q, j)) + b q + ∑ j, h (p, j) · Wroot (q, j), 0). -/
theorem layer2 (x0 : (⟨S50000x128, .f32⟩ : BufTy).Contents (Elt Ideal)) (x1 : (⟨S2x800000, .i32⟩ : BufTy).Contents (Elt Ideal))
    (x3 : (⟨S800000, .f32⟩ : BufTy).Contents (Elt Ideal)) (x4 : (⟨S256x128, .f32⟩ : BufTy).Contents (Elt Ideal))
    (x5 : (⟨S256, .f32⟩ : BufTy).Contents (Elt Ideal)) (x6 : (⟨S256x128, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) :
    Read.val_main_v47 (F := Ideal) x0 x1 x3 x4 x5 x6 x7 x8 x9
      = reluLayer (agg2 x1 x3 (Read.val_main_v25 (F := Ideal) x0 x1 x3 x4 x5 x6))
          (Read.val_main_v25 (F := Ideal) x0 x1 x3 x4 x5 x6) x7 x9 (rowOf x8) := by
  funext i
  obtain ⟨p, q, rfl⟩ : ∃ (p : Fin 50000) (q : Fin 256), i = ix2 p q := ⟨i 0, i 1, eq_ix2 i⟩
  have el : ∀ k : Fin 256, Read.lidx_main_v40 (ix2 p q) k = ix2 p k := fun k =>
    funext fun a => Fin.ext (by match a with | ⟨0, _⟩ => rfl | ⟨1, _⟩ => rfl)
  have er : ∀ k : Fin 256, Read.idx_main_v39 (Read.ridx_main_v40 (ix2 p q) k) = ix2 q k := fun k =>
    funext fun a => Fin.ext (by match a with | ⟨0, _⟩ => rfl | ⟨1, _⟩ => rfl)
  have el' : ∀ k : Fin 256, Read.lidx_main_v45 (ix2 p q) k = ix2 p k := fun k =>
    funext fun a => Fin.ext (by match a with | ⟨0, _⟩ => rfl | ⟨1, _⟩ => rfl)
  have er' : ∀ k : Fin 256, Read.idx_main_v44 (Read.ridx_main_v45 (ix2 p q) k) = ix2 q k := fun k =>
    funext fun a => Fin.ext (by match a with | ⟨0, _⟩ => rfl | ⟨1, _⟩ => rfl)
  have eb : Read.idx_main_v41 (Read.idx_main_v42 (ix2 p q)) = ix1 q :=
    funext fun a => Fin.ext (by match a with | ⟨0, _⟩ => rfl)
  rw [Read.val_main_v47_apply, Read.val_main_v46_apply, Read.val_main_v43_apply, Read.val_main_v40_apply,
    Read.val_main_v42_apply, Read.val_main_v41_apply, Read.val_main_v45_apply, Read.val_main_call1_v0_apply,
    Read.val_main_call1_cst_apply, agg2_stage]
  generalize Read.val_main_v25 (F := Ideal) x0 x1 x3 x4 x5 x6 = h
  generalize agg2 x1 x3 h = a
  simp only [Read.val_main_v39_apply, Read.val_main_v44_apply, el, er, el', er', eb]
  rfl

/-- The per-graph sum, as a function of the hidden array [n, 256]: every node's row added into the row of the node's graph,
    starting from zero. -/
def pool (x2 : (⟨S50000, .i32⟩ : BufTy).Contents (Elt Ideal)) (h : Mat 50000 256) : Mat 128 256 :=
  Host.scatterAdd (F := Ideal) (φ := .f32) scatter_S128x256_S50000x1_S50000x256_1_0_0_1 (Read.val_main_v48 (F := Ideal))
    (Read.val_main_v49 (F := Ideal) x2) h

/-- The per-graph sum the program computes is `pool` of the second convolution's output: the two are the same expression. -/
theorem pool_stage (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S800000, .f32⟩ : BufTy).Contents (Elt Ideal))
    (x4 : (⟨S256x128, .f32⟩ : BufTy).Contents (Elt Ideal)) (x5 : (⟨S256, .f32⟩ : BufTy).Contents (Elt Ideal))
    (x6 : (⟨S256x128, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal)) :
    Read.val_main_v50 (F := Ideal) x0 x1 x2 x3 x4 x5 x6 x7 x8 x9
      = pool x2 (Read.val_main_v47 (F := Ideal) x0 x1 x3 x4 x5 x6 x7 x8 x9) := by
  unfold Read.val_main_v50 pool
  with_reducible rfl

/-- The head at entry (p, q), over the pooled array g: with  u (p, k) = max ((∑ j, g (p, j) · W1 (k, j)) + b1 k, 0),  the result
    is the logistic function of  (∑ k, u (p, k) · W2 (q, k)) + b2 q;  the quotient 1 / (1 + e^(-z)) is that function because
    the f32 word of 1.0 denotes 1. -/
theorem head_eq (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S800000, .f32⟩ : BufTy).Contents (Elt Ideal))
    (x4 : (⟨S256x128, .f32⟩ : BufTy).Contents (Elt Ideal)) (x5 : (⟨S256, .f32⟩ : BufTy).Contents (Elt Ideal))
    (x6 : (⟨S256x128, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256x256, .f32⟩ : BufTy).Contents (Elt Ideal)) (x11 : (⟨S256, .f32⟩ : BufTy).Contents (Elt Ideal))
    (x12 : (⟨S10x256, .f32⟩ : BufTy).Contents (Elt Ideal)) (x13 : (⟨S10, .f32⟩ : BufTy).Contents (Elt Ideal)) :
    Read.val_main_v67 (F := Ideal) x0 x1 x2 x3 x4 x5 x6 x7 x8 x9 x10 x11 x12 x13
      = head (Read.val_main_v50 (F := Ideal) x0 x1 x2 x3 x4 x5 x6 x7 x8 x9) x10 (rowOf x11) x12 (rowOf x13) := by
  funext i
  obtain ⟨p, q, rfl⟩ : ∃ (p : Fin 128) (q : Fin 10), i = ix2 p q := ⟨i 0, i 1, eq_ix2 i⟩
  have el : ∀ k : Fin 256, Read.lidx_main_v58 (ix2 p q) k = ix2 p k := fun k =>
    funext fun a => Fin.ext (by match a with | ⟨0, _⟩ => rfl | ⟨1, _⟩ => rfl)
  have er : ∀ k : Fin 256, Read.idx_main_v57 (Read.ridx_main_v58 (ix2 p q) k) = ix2 q k := fun k =>
    funext fun a => Fin.ext (by match a with | ⟨0, _⟩ => rfl | ⟨1, _⟩ => rfl)
  have eb : Read.idx_main_v59 (Read.idx_main_v60 (ix2 p q)) = ix1 q :=
    funext fun a => Fin.ext (by match a with | ⟨0, _⟩ => rfl)
  have hl : ∀ (k j : Fin 256), Read.lidx_main_v52 (ix2 p k) j = ix2 p j := fun k j =>
    funext fun a => Fin.ext (by match a with | ⟨0, _⟩ => rfl | ⟨1, _⟩ => rfl)
  have hr : ∀ (k j : Fin 256), Read.idx_main_v51 (Read.ridx_main_v52 (ix2 p k) j) = ix2 k j := fun k j =>
    funext fun a => Fin.ext (by match a with | ⟨0, _⟩ => rfl | ⟨1, _⟩ => rfl)
  have hb : ∀ k : Fin 256, Read.idx_main_v53 (Read.idx_main_v54 (ix2 p k)) = ix1 k := fun k =>
    funext fun a => Fin.ext (by match a with | ⟨0, _⟩ => rfl)
  rw [Read.val_main_v67_apply, Read.val_main_v66_apply, Read.val_main_cst_6_apply, Read.val_main_v65_apply,
    Read.val_main_v64_apply, Read.val_main_cst_5_apply, Read.val_main_v63_apply, Read.val_main_v62_apply,
    Read.val_main_v61_apply, Read.val_main_v58_apply, Read.val_main_v60_apply, Read.val_main_v59_apply]
  simp only [el, er, eb, Read.val_main_v57_apply, Read.val_main_v56_apply, Read.val_main_v55_apply,
    Read.val_main_v52_apply, Read.val_main_v54_apply, Read.val_main_v53_apply, Read.val_main_v51_apply,
    Read.val_main_call2_v0_apply, Read.val_main_call2_cst_apply, hl, hr, hb, Ideal.ofBits_def, Cert.Lib.one_f32]
  generalize Read.val_main_v50 (F := Ideal) x0 x1 x2 x3 x4 x5 x6 x7 x8 x9 = g
  rfl

/-- The last stage, over the argument arrays as variables, is the network: head after pool after the two convolutions. -/
theorem net_eq (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S800000, .f32⟩ : BufTy).Contents (Elt Ideal))
    (x4 : (⟨S256x128, .f32⟩ : BufTy).Contents (Elt Ideal)) (x5 : (⟨S256, .f32⟩ : BufTy).Contents (Elt Ideal))
    (x6 : (⟨S256x128, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256x256, .f32⟩ : BufTy).Contents (Elt Ideal)) (x11 : (⟨S256, .f32⟩ : BufTy).Contents (Elt Ideal))
    (x12 : (⟨S10x256, .f32⟩ : BufTy).Contents (Elt Ideal)) (x13 : (⟨S10, .f32⟩ : BufTy).Contents (Elt Ideal)) :
    Read.val_main_v67 (F := Ideal) x0 x1 x2 x3 x4 x5 x6 x7 x8 x9 x10 x11 x12 x13
      = net (agg1 x1 x3) (agg2 x1 x3) (pool x2) x0 x4 x6 x5 x7 x9 x8 x10 x11 x12 x13 := by
  rw [head_eq, pool_stage, layer2, layer1]
  unfold net conv2 conv1
  with_reducible rfl

/-- The reference's result buffer holds the network function of the launch contents of the program's arguments. -/
theorem value (m : (ℓ : Loc nD τ sig) → Buf (Elt Ideal) ℓ) (c : Dev nD) :
    Cert.ReferenceIdeal.Value.res_main_v67 (F := Ideal) m c
      = net (agg1 (m ((c.tc : Thread nD τ).loc main_arg1)) (m ((c.tc : Thread nD τ).loc main_arg3)))
          (agg2 (m ((c.tc : Thread nD τ).loc main_arg1)) (m ((c.tc : Thread nD τ).loc main_arg3)))
          (pool (m ((c.tc : Thread nD τ).loc main_arg2)))
          (m ((c.tc : Thread nD τ).loc main_arg0)) (m ((c.tc : Thread nD τ).loc main_arg4))
          (m ((c.tc : Thread nD τ).loc main_arg6)) (m ((c.tc : Thread nD τ).loc main_arg5))
          (m ((c.tc : Thread nD τ).loc main_arg7)) (m ((c.tc : Thread nD τ).loc main_arg9))
          (m ((c.tc : Thread nD τ).loc main_arg8)) (m ((c.tc : Thread nD τ).loc main_arg10))
          (m ((c.tc : Thread nD τ).loc main_arg11)) (m ((c.tc : Thread nD τ).loc main_arg12))
          (m ((c.tc : Thread nD τ).loc main_arg13)) :=
  (Read.val_main_v67_eq (F := Ideal) m c).trans (net_eq _ _ _ _ _ _ _ _ _ _ _ _ _ _)

end Cert.Gnn.Ref

end
-- ==== Proof.SharedSteps.lean ====
/-
  The two programs apply the same irregular steps.

  Both programs compute each weighted neighbour sum and the per-graph sum on the host with the same operations, in the same
  order, on the same index arrays: the sources and targets are the two rows of the edge array, a negative source index is
  wrapped, the source rows are gathered, scaled by the edge weights and added into the target rows from zero. Written as
  functions of the array they read, the kernel program's and the reference's are the same expression.
-/
import proofs.«177770_j49933289783570_1_alg».proof.Proof.KernelValue
import proofs.«177770_j49933289783570_1_alg».proof.Proof.RefValue

set_option maxRecDepth 16384

noncomputable section

namespace Cert.Gnn

open Idealize.ShloMosaic Idealize.ShloMosaic.TcCoe Cert.Lib.LinearLayer

set_option maxHeartbeats 400000 in
theorem agg1_eq (x1 : (⟨Cert.KernelIdeal.S2x800000, .i32⟩ : BufTy).Contents (Elt Ideal))
    (x3 : (⟨Cert.KernelIdeal.S800000, .f32⟩ : BufTy).Contents (Elt Ideal)) : Ker.agg1 x1 x3 = Ref.agg1 x1 x3 :=
  funext fun _ => rfl

set_option maxHeartbeats 400000 in
theorem agg2_eq (x1 : (⟨Cert.KernelIdeal.S2x800000, .i32⟩ : BufTy).Contents (Elt Ideal))
    (x3 : (⟨Cert.KernelIdeal.S800000, .f32⟩ : BufTy).Contents (Elt Ideal)) : Ker.agg2 x1 x3 = Ref.agg2 x1 x3 :=
  funext fun _ => rfl

set_option maxHeartbeats 400000 in
theorem pool_eq (x2 : (⟨Cert.KernelIdeal.S50000, .i32⟩ : BufTy).Contents (Elt Ideal)) : Ker.pool x2 = Ref.pool x2 :=
  funext fun _ => rfl

end Cert.Gnn

end
-- ==== Proof.lean ====
/-
  A two-layer graph convolution network with a pooled logistic head, computed two ways, is one function of its inputs over
  the extended reals.

  The kernel program computes each weighted neighbour sum on the host, each convolution  max (A · Wrelᵀ + b + h · Wrootᵀ, 0)
  in a pipelined region over blocks of 2000 node rows, the per-graph row sum on the host, and the head
  σ (max (g · W1ᵀ + b1, 0) · W2ᵀ + b2)  in a one-point region; the reference computes all of it on the host, the logistic
  function spelt as 1 / (1 + e^(-z)). Both results are the network of the specification applied to the launch contents of
  the arguments, with the same three irregular steps, so the two programs end with equal results. No law that needs
  finiteness is used: the precondition is never opened. The idealization rewrote nothing, so its conjunct is trivial.
-/
import proofs.«177770_j49933289783570_1_alg».proof.Defs
import proofs.«177770_j49933289783570_1_alg».proof.Proof.Gen.Kernel
import proofs.«177770_j49933289783570_1_alg».proof.Proof.Gen.Kernel.Frame
import proofs.«177770_j49933289783570_1_alg».proof.Proof.Gen.KernelIdeal
import proofs.«177770_j49933289783570_1_alg».proof.Proof.Gen.KernelIdeal.Frame
import proofs.«177770_j49933289783570_1_alg».proof.Proof.Gen.ReferenceIdeal
import proofs.«177770_j49933289783570_1_alg».proof.Proof.Gen.ReferenceIdeal.Run
import proofs.«177770_j49933289783570_1_alg».proof.Proof.Gen.ReferenceIdeal.Read
import proofs.«177770_j49933289783570_1_alg».proof.Proof.Gen.Pre_finite_inputs
import proofs.«177770_j49933289783570_1_alg».proof.Proof.KernelRun
import proofs.«177770_j49933289783570_1_alg».proof.Proof.KernelValue
import proofs.«177770_j49933289783570_1_alg».proof.Proof.RefValue
import proofs.«177770_j49933289783570_1_alg».proof.Proof.SharedSteps
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the network of the launch contents; the launch contents agree, and the three
    irregular steps are the same functions. -/
theorem algebraic : Cert.algebraic_KernelIdeal_ReferenceIdeal := by
  intro m ρ m' ρ' _ hagree
  refine ⟨fun c => Cert.KernelIdeal.Gen.W6 m ρ c (Proc.devRef .tc Cert.KernelIdeal.main_v39),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.Gnn.Ref.value m' c, h0, h1, h2, h3, h4, h5, h6, h7, h8, h9, h10, h11, h12, h13]
  exact ((Cert.Gnn.Ker.value m ρ c).trans (by rw [Cert.Gnn.agg1_eq, Cert.Gnn.agg2_eq, Cert.Gnn.pool_eq])).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
